-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S512x2048 : Shape := ⟨2, ![512, 2048]⟩
abbrev S1024x1024 : Shape := ⟨2, ![1024, 1024]⟩
abbrev S2048 : Shape := ⟨1, ![2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S8192x1024 .f32) (main_arg5 : FVec F S512x2048 .f32) (main_arg6 : FVec F S1024x1024 .f32) (main_arg7 : FVec F S2048 .f32) (main_arg8 : FVec F S2048 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x1024 .f32) (main_arg2 : FVec F S8192x1024 .f32) (main_arg3 : FVec F S8192x1024 .f32) (main_arg4 : FVec F S8192x1024 .f32) (main_arg5 : FVec F S512x2048 .f32) (main_arg6 : FVec F S1024x1024 .f32) (main_arg7 : FVec F S2048 .f32) (main_arg8 : FVec F S2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x1024 : Shape := ⟨2, ![8192, 1024]⟩
abbrev S512x2048 : Shape := ⟨2, ![512, 2048]⟩
abbrev S1024x1024 : Shape := ⟨2, ![1024, 1024]⟩
abbrev S2048 : Shape := ⟨1, ![2048]⟩
abbrev S1x2048 : Shape := ⟨2, ![1, 2048]⟩
abbrev S256x512 : Shape := ⟨2, ![256, 512]⟩
abbrev S256x1024 : Shape := ⟨2, ![256, 1024]⟩
abbrev S1x1024 : Shape := ⟨2, ![1, 1024]⟩
abbrev S256x2048 : Shape := ⟨2, ![256, 2048]⟩

abbrev nBuf : Space → Nat
  | .hbm => 15
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S512x2048, .f32⟩
  | .hbm, ⟨6, _⟩ => ⟨S1024x1024, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x2048, .f32⟩
  | .local _ .vmem, ⟨11, _⟩ => ⟨S1024x1024, .f32⟩
  | .local _ .vmem, ⟨12, _⟩ => ⟨S1x2048, .f32⟩
  | .local _ .vmem, ⟨13, _⟩ => ⟨S1x2048, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S2048_S1x2048 : S2048.ShapeCasts S1x2048
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x2048_S512x2048_0_0 : ∀ a, (![0, 0] : Fin 2 → Nat) a + S512x2048.size a ≤ S512x2048.size a
  h_S512x2048 : 0 < S512x2048.numel
  inb_S1024x1024_S1024x1024_0_0 : ∀ a, (![0, 0] : Fin 2 → Nat) a + S1024x1024.size a ≤ S1024x1024.size a
  h_S1024x1024 : 0 < S1024x1024.numel
  inb_S1x2048_S1x1024_0_0 : ∀ a, (![0, 0] : Fin 2 → Nat) a + S1x1024.size a ≤ S1x2048.size a
  h_S1x1024 : 0 < S1x1024.numel
  shapeCasts_S1x1024_S1x1024 : S1x1024.ShapeCasts S1x1024
  inb_S1x2048_S1x1024_0_1024 : ∀ a, (![0, 1024] : Fin 2 → Nat) a + S1x1024.size a ≤ S1x2048.size a
  slices_S256x2048_o0_0_S256x1024 : S256x2048.Slices ![0, 0] S256x1024
  slices_S256x2048_o0_1024_S256x1024 : S256x2048.Slices ![0, 1024] S256x1024
  broadcasts_S1x1024_S256x1024 : S1x1024.Broadcasts S256x1024
  natLt_1_32 : 1 < 32
  dot_S256x512_S512x2048_S256x2048_1_0_0_1_n_n_wf : DotDims.WF S256x512 S512x2048 S256x2048 [1] [0] [0] [1] [] []
  dot_S256x1024_S1024x1024_S256x1024_1_0_0_1_n_n_wf : DotDims.WF S256x1024 S1024x1024 S256x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .f32 = 32 ∨ (Rect.block (s := S512x2048) S512x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S8192x1024.size a
  hwx0_12 : ∀ i : grid0.Coords, EltTy.bits .f32 = 32 ∨ (Rect.block (s := S8192x1024) S256x1024.size (cc0_transform_12 i) (hinb0_12 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_2) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_3) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S512x2048 : Shape := ⟨2, ![512, 2048]⟩
abbrev S1024x1024 : Shape := ⟨2, ![1024, 1024]⟩
abbrev S2048 : Shape := ⟨1, ![2048]⟩
abbrev S512x1024 : Shape := ⟨2, ![512, 1024]⟩
abbrev S1024 : Shape := ⟨1, ![1024]⟩
abbrev S1x1024 : Shape := ⟨2, ![1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S512x2048, .f32⟩
  | .hbm, ⟨6, _⟩ => ⟨S1024x1024, .f32⟩
  | .hbm, ⟨7, _⟩ => ⟨S2048, .f32⟩
  | .hbm, ⟨8, _⟩ => ⟨S2048, .f32⟩
  | .hbm, ⟨9, _⟩ => ⟨S512x1024, .f32⟩
  | .hbm, ⟨10, _⟩ => ⟨S512x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .i1⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .i1⟩
  | .hbm, ⟨60, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call1_cst : Ref sig .tc := ⟨.hbm, 51, rfl⟩
abbrev main_call1_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  slices_S512x2048_S512x1024_0_0 : S512x2048.Slices ![0, 0] S512x1024
  slices_S512x2048_S512x1024_0_1024 : S512x2048.Slices ![0, 1024] S512x1024
  slices_S2048_S1024_0 : S2048.Slices ![0] S1024
  slices_S2048_S1024_1024 : S2048.Slices ![1024] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  dot_S8192x512_S512x1024_S8192x1024_1_0_0_1_n_n_wf : DotDims.WF S8192x512 S512x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.LibBitToFloat.lean ====
/-
  A comparison's one-bit answer turned into a float, two ways, at the ideal values: a kernel widens the bit to 32
  bits without sign and converts the word as a SIGNED integer; a host program converts the bit itself as an
  UNSIGNED integer. Both give 0 or 1: the widened word is 0 or 1, so its sign bit is clear.
-/
import Idealize.ShloMosaic.PureOps.Ideal
import Idealize.ShloMosaic.Lib.ValueIdx

noncomputable section

namespace Cert.LibBitToFloat

open Idealize.ShloMosaic

/-- A one-bit word widened to 32 bits and read as a signed integer is the bit. -/
theorem toInt_setWidth_bit (w : BitVec 1) : (w.setWidth 32).toInt = (w.toNat : Int) := by
  by_cases h : w = 1#1
  · subst h; decide
  · have h0 := ValueIdx.eq_zero_of_ne_one h; subst h0; decide

/-- So the signed conversion of the widened word and the unsigned conversion of the bit are one extended real. -/
theorem sitofp_setWidth_eq_uitofp (w : BitVec 1) :
    (((w.setWidth 32).toInt : ℝ) : EReal) = ((w.toNat : ℝ) : EReal) := by
  rw [toInt_setWidth_bit]
  norm_cast

end Cert.LibBitToFloat
-- ==== Proof.Spec.lean ====
/-
  One step of a recurrent cell with an excitatory and an inhibitory population of 1024 units each, driven by
  512 inputs, for ONE batch row, on the extended reals.

  Per row the data are: the input row `x` (512 entries), the two populations' previous outputs `ye`, `yi` and
  previous states `se`, `si` (1024 entries each); shared by all rows are the input weights `iw` (512 × 2048:
  columns 0 … 1023 feed the excitatory units, columns 1024 … 2047 the inhibitory ones), the coupling `eiw`
  (1024 × 1024), the leak `l` and the threshold offset `b` (2048 entries each, split the same way).

    new excitatory state  = max (x · iw[:, q] + ye q + yi · eiw[:, q] + l q · se q · (1 − ye q)) 0
    new inhibitory state  = max (x · iw[:, 1024 + q] + yi q − ye · eiw[q, :] + l (1024 + q) · si q · (1 − yi q)) 0
    new output            = 1 where the new state plus the offset is positive, else 0.

  Both programs compute these, row by row; they differ in how the excitatory coupling is spelt: one adds
  yi · eiw[:, q], the other subtracts yi · (−eiw)[:, q]. On the extended reals the two agree when the entries of
  `yi` and `eiw` are real (LibNegDot.lean); at infinite entries a sum and its termwise negation can part.
-/
import Idealize.ShloMosaic.PureOps.Ideal
import Idealize.ShloMosaic.Lib.ValueIdx
import proofs.«169001_j81862076661763_2_alg».proof.Proof.LibBitToFloat

noncomputable section

namespace Cert.Cell

open Idealize.ShloMosaic
open scoped BigOperators

/-- The float words of one and of zero, kept as words: both programs print the same words, so neither is evaluated. -/
abbrev one : EReal := Ideal.ofBits .f32 0x3F800000#32
abbrev zero : EReal := Ideal.ofBits .f32 0x00000000#32

/-- Unit `q`'s column in the first (excitatory) and in the second (inhibitory) half of the 2048 columns. -/
abbrev lo (q : Fin 1024) : Fin 2048 := ⟨q.val, by omega⟩
abbrev hi (q : Fin 1024) : Fin 2048 := ⟨1024 + q.val, by omega⟩

/-- A comparison's one-bit answer as a number: 1 or 0. -/
def spike (w : BitVec 1) : EReal := ((w.toNat : ℝ) : EReal)

/-- The new excitatory state of unit `q` in one row. -/
def excState (x : Fin 512 → EReal) (ye se yi : Fin 1024 → EReal) (iw : Fin 512 → Fin 2048 → EReal)
    (eiw : Fin 1024 → Fin 1024 → EReal) (l : Fin 2048 → EReal) (q : Fin 1024) : EReal :=
  max ((((∑ k, x k * iw k (lo q)) + ye q) + ∑ k, yi k * eiw k q) + (l (lo q) * se q) * (one - ye q)) zero

/-- The new excitatory output of unit `q` in one row. -/
def excSpike (x : Fin 512 → EReal) (ye se yi : Fin 1024 → EReal) (iw : Fin 512 → Fin 2048 → EReal)
    (eiw : Fin 1024 → Fin 1024 → EReal) (b l : Fin 2048 → EReal) (q : Fin 1024) : EReal :=
  spike (Ideal.cmp .ogt (excState x ye se yi iw eiw l q + b (lo q)) zero)

/-- The new inhibitory state of unit `q` in one row. -/
def inhState (x : Fin 512 → EReal) (ye yi si : Fin 1024 → EReal) (iw : Fin 512 → Fin 2048 → EReal)
    (eiw : Fin 1024 → Fin 1024 → EReal) (l : Fin 2048 → EReal) (q : Fin 1024) : EReal :=
  max ((((∑ k, x k * iw k (hi q)) + yi q) - ∑ k, ye k * eiw q k) + (l (hi q) * si q) * (one - yi q)) zero

/-- The new inhibitory output of unit `q` in one row. -/
def inhSpike (x : Fin 512 → EReal) (ye yi si : Fin 1024 → EReal) (iw : Fin 512 → Fin 2048 → EReal)
    (eiw : Fin 1024 → Fin 1024 → EReal) (b l : Fin 2048 → EReal) (q : Fin 1024) : EReal :=
  spike (Ideal.cmp .ogt (inhState x ye yi si iw eiw l q + b (hi q)) zero)

/-- Converting the widened word as a signed integer gives the bit as a number. -/
theorem sitofp_setWidth_bit (w : BitVec 1) : (((w.setWidth 32).toInt : ℝ) : EReal) = spike w :=
  Cert.LibBitToFloat.sitofp_setWidth_eq_uitofp w

/-! ## The whole arrays

The four results over the whole batch: entry (p, q) of each is the row function above at row `p` of the four batch
arrays and at the shared weights, unit `q`. -/

open ValueIdx

abbrev ShX : Shape := ⟨2, ![8192, 512]⟩
abbrev ShH : Shape := ⟨2, ![8192, 1024]⟩
abbrev ShW : Shape := ⟨2, ![512, 2048]⟩
abbrev ShE : Shape := ⟨2, ![1024, 1024]⟩
abbrev ShV : Shape := ⟨1, ![2048]⟩

def excStateArr (X : ShX.Idx → EReal) (Ye Se Yi : ShH.Idx → EReal) (IW : ShW.Idx → EReal) (EIW : ShE.Idx → EReal)
    (L : ShV.Idx → EReal) : ShH.Idx → EReal := fun i =>
  excState (fun k => X (ix2 (i 0) k)) (fun k => Ye (ix2 (i 0) k)) (fun k => Se (ix2 (i 0) k)) (fun k => Yi (ix2 (i 0) k))
    (fun a b => IW (ix2 a b)) (fun a b => EIW (ix2 a b)) (fun a => L (ix1 a)) (i 1)

def excSpikeArr (X : ShX.Idx → EReal) (Ye Se Yi : ShH.Idx → EReal) (IW : ShW.Idx → EReal) (EIW : ShE.Idx → EReal)
    (B L : ShV.Idx → EReal) : ShH.Idx → EReal := fun i =>
  excSpike (fun k => X (ix2 (i 0) k)) (fun k => Ye (ix2 (i 0) k)) (fun k => Se (ix2 (i 0) k)) (fun k => Yi (ix2 (i 0) k))
    (fun a b => IW (ix2 a b)) (fun a b => EIW (ix2 a b)) (fun a => B (ix1 a)) (fun a => L (ix1 a)) (i 1)

def inhStateArr (X : ShX.Idx → EReal) (Ye Yi Si : ShH.Idx → EReal) (IW : ShW.Idx → EReal) (EIW : ShE.Idx → EReal)
    (L : ShV.Idx → EReal) : ShH.Idx → EReal := fun i =>
  inhState (fun k => X (ix2 (i 0) k)) (fun k => Ye (ix2 (i 0) k)) (fun k => Yi (ix2 (i 0) k)) (fun k => Si (ix2 (i 0) k))
    (fun a b => IW (ix2 a b)) (fun a b => EIW (ix2 a b)) (fun a => L (ix1 a)) (i 1)

def inhSpikeArr (X : ShX.Idx → EReal) (Ye Yi Si : ShH.Idx → EReal) (IW : ShW.Idx → EReal) (EIW : ShE.Idx → EReal)
    (B L : ShV.Idx → EReal) : ShH.Idx → EReal := fun i =>
  inhSpike (fun k => X (ix2 (i 0) k)) (fun k => Ye (ix2 (i 0) k)) (fun k => Yi (ix2 (i 0) k)) (fun k => Si (ix2 (i 0) k))
    (fun a b => IW (ix2 a b)) (fun a b => EIW (ix2 a b)) (fun a => B (ix1 a)) (fun a => L (ix1 a)) (i 1)

end Cert.Cell
-- ==== Proof.Payload.lean ====
/-
  What one grid point of the kernel leaves in its four output blocks. A point holds 256 batch rows: the rows'
  blocks of x, y_exc, s_exc, y_inh, s_inh, and the whole of the input weights, the coupling, the offset row and
  the leak row (each 1 × 2048). Entry (p, q) of each output block is the row function of Spec.lean at block row
  `p` and unit `q`:
  * the input drive is ONE product of the 256 × 512 block with all 2048 weight columns, of which the excitatory
    half reads columns 0 … 1023 and the inhibitory half columns 1024 … 2047;
  * the excitatory coupling is the product of the y_inh block with the coupling matrix, ADDED; the inhibitory
    coupling the product of the y_exc block with the coupling's ROWS (the contraction runs over the second axis
    of both), subtracted;
  * the leak and the offset are half rows (columns 0 … 1023 or 1024 … 2047 of a 1 × 2048 row) repeated down the
    256 rows;
  * the output is the comparison's bit widened to 32 bits and converted as a signed integer: 0 or 1.
-/
import proofs.«169001_j81862076661763_2_alg».proof.Proof.Gen.KernelIdeal.Frame
import proofs.«169001_j81862076661763_2_alg».proof.Proof.LibDot
import proofs.«169001_j81862076661763_2_alg».proof.Proof.LibGram
import proofs.«169001_j81862076661763_2_alg».proof.Proof.Spec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Cell
open scoped BigOperators

theorem hz : (![0, 0] : Fin 2 → Nat) = fun _ => 0 := funext fun a => by fin_cases a <;> rfl

/-! ## The operations that are not entry by entry -/

/-- The input drive at (p, c): row `p` of the x block against column `c` of the input weights. -/
theorem inputDrive_apply (v0 : FVec Ideal S256x512 .f32) (v5 : FVec Ideal S512x2048 .f32) (p : Fin 256) (c : Fin 2048) :
    k0_pay6 v0 v5 (ix2 p c) = ∑ k : Fin 512, v0 (ix2 p k) * v5 (ix2 k c) :=
  LibDot.matmul_zero_apply dot_S256x512_S512x2048_S256x2048_1_0_0_1_n_n_wf (some .fp32) v0 v5 p c

/-- The product with the coupling's columns at (p, q). -/
theorem couplingCols_apply (v3 : FVec Ideal S256x1024 .f32) (v6 : FVec Ideal S1024x1024 .f32) (p : Fin 256) (q : Fin 1024) :
    matmul dot_S256x1024_S1024x1024_S256x1024_1_0_0_1_n_n (some .fp32) v3 v6 (constant (F := Ideal) S256x1024 .f32 0x00000000#32) (ix2 p q)
      = ∑ k : Fin 1024, v3 (ix2 p k) * v6 (ix2 k q) :=
  LibDot.matmul_zero_apply dot_S256x1024_S1024x1024_S256x1024_1_0_0_1_n_n_wf (some .fp32) v3 v6 p q

/-- The product with the coupling's rows at (p, q). -/
theorem couplingRows_apply (v1 : FVec Ideal S256x1024 .f32) (v6 : FVec Ideal S1024x1024 .f32) (p : Fin 256) (q : Fin 1024) :
    matmul dot_S256x1024_S1024x1024_S256x1024_1_1_0_0_n_n (some .fp32) v1 v6 (constant (F := Ideal) S256x1024 .f32 0x00000000#32) (ix2 p q)
      = ∑ k : Fin 1024, v1 (ix2 p k) * v6 (ix2 q k) :=
  LibGram.matmul_zero_apply dot_S256x1024_S1024x1024_S256x1024_1_1_0_0_n_n_wf (some .fp32) v1 v6 p q

/-- Columns 0 … 1023 of a 256 × 2048 value. -/
theorem firstHalf_apply (M : FVec Ideal S256x2048 .f32) (p : Fin 256) (q : Fin 1024) :
    extractStridedSlice S256x1024 ![0, 0] M slices_S256x2048_o0_0_S256x1024 (ix2 p q) = M (ix2 p (lo q)) :=
  extractStridedSlice_apply _ M _ (ix2 p q) (ix2 p (lo q)) (fun a => match a with
    | ⟨0, _⟩ => by show p.val = 0 + p.val; omega
    | ⟨1, _⟩ => by show q.val = 0 + q.val; omega)

/-- Columns 1024 … 2047 of a 256 × 2048 value. -/
theorem secondHalf_apply (M : FVec Ideal S256x2048 .f32) (p : Fin 256) (q : Fin 1024) :
    extractStridedSlice S256x1024 ![0, 1024] M slices_S256x2048_o0_1024_S256x1024 (ix2 p q) = M (ix2 p (hi q)) :=
  extractStridedSlice_apply _ M _ (ix2 p q) (ix2 p (hi q)) (fun a => match a with
    | ⟨0, _⟩ => by show p.val = 0 + p.val; omega
    | ⟨1, _⟩ => by show 1024 + q.val = 1024 + q.val; rfl)

/-- A 1 × 1024 row repeated down 256 rows. -/
theorem rowRepeat_apply (w : FVec Ideal S1x1024 .f32) (p : Fin 256) (q : Fin 1024) :
    broadcastTo S256x1024 w broadcasts_S1x1024_S256x1024 (ix2 p q) = w (ix2 0 q) :=
  broadcastTo_apply w _ (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The load of columns 0 … 1023 of a 1 × 2048 row. -/
theorem loadFirstHalf_apply (x : Vec Ideal S1x2048 .f32) (q : Fin 1024) :
    View.ld x r0_4 (ix2 0 q) = x (ix2 0 (lo q)) := by
  show x _ = x _
  congr 1; funext a; apply Fin.ext
  match a with
  | ⟨0, _⟩ => show 0 + 1 * 0 = 0; rfl
  | ⟨1, _⟩ => show 0 + 1 * q.val = q.val; omega

/-- The load of columns 1024 … 2047 of a 1 × 2048 row. -/
theorem loadSecondHalf_apply (x : Vec Ideal S1x2048 .f32) (q : Fin 1024) :
    View.ld x r0_5 (ix2 0 q) = x (ix2 0 (hi q)) := by
  show x _ = x _
  congr 1; funext a; apply Fin.ext
  match a with
  | ⟨0, _⟩ => show 0 + 1 * 0 = 0; rfl
  | ⟨1, _⟩ => show 1024 + 1 * q.val = 1024 + q.val; omega

/-- A comparison's bit, widened and converted, is the bit as a number. -/
theorem spike_apply (a z : FVec Ideal S256x1024 .f32) (i : S256x1024.Idx) :
    (sitofp .f32 (extui 32 (cmpf .ogt a z) natLt_1_32) : FVec Ideal S256x1024 .f32) i = spike (Ideal.cmp .ogt (a i) (z i)) :=
  sitofp_setWidth_bit _

/-! ## The payloads at an entry -/

/-- The new excitatory state of the block, over the loaded values. -/
theorem excState_pay (v0 : Vec Ideal S256x512 .f32) (v1 v2 v3 : Vec Ideal S256x1024 .f32) (v5 : Vec Ideal S512x2048 .f32)
    (v6 : Vec Ideal S1024x1024 .f32) (v11 : Vec Ideal S1x1024 .f32) (p : Fin 256) (q : Fin 1024) :
    k0_pay8 v0 v1 v2 v3 v5 v6 v11 (ix2 p q)
      = max ((((∑ k : Fin 512, v0 (ix2 p k) * v5 (ix2 k (lo q))) + v1 (ix2 p q)) + ∑ k : Fin 1024, v3 (ix2 p k) * v6 (ix2 k q))
          + (v11 (ix2 0 q) * v2 (ix2 p q)) * (one - v1 (ix2 p q))) zero := by
  unfold k0_pay8
  simp only [maximumf_apply, addf_apply, mulf_apply, subf_apply, broadcast_apply]
  rw [firstHalf_apply, inputDrive_apply, couplingCols_apply, shapeCast_self, rowRepeat_apply]
  rfl

/-- The new inhibitory state of the block, over the loaded values, the already sliced input drive `v17` and the
    already loaded leak row `v14`. -/
theorem inhState_pay (v1 v3 v4 : Vec Ideal S256x1024 .f32) (v6 : Vec Ideal S1024x1024 .f32) (v14 : FVec Ideal S1x1024 .f32)
    (v17 : FVec Ideal S256x1024 .f32) (p : Fin 256) (q : Fin 1024) :
    k0_pay2 v1 v3 v4 v6 v14 v17 (ix2 p q)
      = max (((v17 (ix2 p q) + v3 (ix2 p q)) - ∑ k : Fin 1024, v1 (ix2 p k) * v6 (ix2 q k))
          + (v14 (ix2 0 q) * v4 (ix2 p q)) * (one - v3 (ix2 p q))) zero := by
  unfold k0_pay2
  simp only [maximumf_apply, addf_apply, mulf_apply, subf_apply, broadcast_apply]
  rw [couplingRows_apply, rowRepeat_apply]
  rfl

/-- The inhibitory half of the input drive: columns 1024 … 2047 of the one product. -/
theorem inputDriveHi_apply (v0 : Vec Ideal S256x512 .f32) (v5 : Vec Ideal S512x2048 .f32) (p : Fin 256) (q : Fin 1024) :
    k0_pay7 v0 v5 (ix2 p q) = ∑ k : Fin 512, v0 (ix2 p k) * v5 (ix2 k (hi q)) := by
  unfold k0_pay7
  rw [secondHalf_apply, inputDrive_apply]

/-! ## The four output blocks of a point -/

/-- The new excitatory state. -/
theorem excState_block (x0 : Vec Ideal S256x512 .f32) (x1 x2 x3 x4 : Vec Ideal S256x1024 .f32) (x5 : Vec Ideal S512x2048 .f32)
    (x6 : Vec Ideal S1024x1024 .f32) (x7 x8 : Vec Ideal S1x2048 .f32) (p : Fin 256) (q : Fin 1024) :
    out0_10 x0 x1 x2 x3 x4 x5 x6 x7 x8 (ix2 p q)
      = excState (fun k => x0 (ix2 p k)) (fun k => x1 (ix2 p k)) (fun k => x2 (ix2 p k)) (fun k => x3 (ix2 p k))
          (fun a b => x5 (ix2 a b)) (fun a b => x6 (ix2 a b)) (fun a => x8 (ix2 0 a)) q := by
  unfold out0_10
  rw [View.canon_unit_zero hz]
  simp only [View.ld_unit_zero (S := S256x512) hz, View.ld_unit_zero (S := S256x1024) hz,
    View.ld_unit_zero (S := S512x2048) hz, View.ld_unit_zero (S := S1024x1024) hz]
  rw [excState_pay, loadFirstHalf_apply]
  rfl

/-- The new excitatory output. -/
theorem excSpike_block (x0 : Vec Ideal S256x512 .f32) (x1 x2 x3 x4 : Vec Ideal S256x1024 .f32) (x5 : Vec Ideal S512x2048 .f32)
    (x6 : Vec Ideal S1024x1024 .f32) (x7 x8 : Vec Ideal S1x2048 .f32) (p : Fin 256) (q : Fin 1024) :
    out0_9 x0 x1 x2 x3 x4 x5 x6 x7 x8 (ix2 p q)
      = excSpike (fun k => x0 (ix2 p k)) (fun k => x1 (ix2 p k)) (fun k => x2 (ix2 p k)) (fun k => x3 (ix2 p k))
          (fun a b => x5 (ix2 a b)) (fun a b => x6 (ix2 a b)) (fun a => x7 (ix2 0 a)) (fun a => x8 (ix2 0 a)) q := by
  unfold out0_9
  rw [View.canon_unit_zero hz]
  simp only [View.ld_unit_zero (S := S256x512) hz, View.ld_unit_zero (S := S256x1024) hz,
    View.ld_unit_zero (S := S512x2048) hz, View.ld_unit_zero (S := S1024x1024) hz]
  unfold k0_pay1
  rw [spike_apply]
  unfold k0_pay9
  simp only [addf_apply]
  rw [excState_pay, shapeCast_self, rowRepeat_apply, loadFirstHalf_apply, loadFirstHalf_apply]
  rfl

/-- The new inhibitory state. -/
theorem inhState_block (x0 : Vec Ideal S256x512 .f32) (x1 x2 x3 x4 : Vec Ideal S256x1024 .f32) (x5 : Vec Ideal S512x2048 .f32)
    (x6 : Vec Ideal S1024x1024 .f32) (x7 x8 : Vec Ideal S1x2048 .f32) (p : Fin 256) (q : Fin 1024) :
    out0_12 x0 x1 x2 x3 x4 x5 x6 x7 x8 (ix2 p q)
      = inhState (fun k => x0 (ix2 p k)) (fun k => x1 (ix2 p k)) (fun k => x3 (ix2 p k)) (fun k => x4 (ix2 p k))
          (fun a b => x5 (ix2 a b)) (fun a b => x6 (ix2 a b)) (fun a => x8 (ix2 0 a)) q := by
  unfold out0_12
  rw [View.canon_unit_zero hz]
  simp only [View.ld_unit_zero (S := S256x512) hz, View.ld_unit_zero (S := S256x1024) hz,
    View.ld_unit_zero (S := S512x2048) hz, View.ld_unit_zero (S := S1024x1024) hz]
  rw [inhState_pay, inputDriveHi_apply]
  unfold k0_pay5
  rw [shapeCast_self, loadSecondHalf_apply]
  rfl

/-- The new inhibitory output. -/
theorem inhSpike_block (x0 : Vec Ideal S256x512 .f32) (x1 x2 x3 x4 : Vec Ideal S256x1024 .f32) (x5 : Vec Ideal S512x2048 .f32)
    (x6 : Vec Ideal S1024x1024 .f32) (x7 x8 : Vec Ideal S1x2048 .f32) (p : Fin 256) (q : Fin 1024) :
    out0_11 x0 x1 x2 x3 x4 x5 x6 x7 x8 (ix2 p q)
      = inhSpike (fun k => x0 (ix2 p k)) (fun k => x1 (ix2 p k)) (fun k => x3 (ix2 p k)) (fun k => x4 (ix2 p k))
          (fun a b => x5 (ix2 a b)) (fun a b => x6 (ix2 a b)) (fun a => x7 (ix2 0 a)) (fun a => x8 (ix2 0 a)) q := by
  unfold out0_11
  rw [View.canon_unit_zero hz]
  simp only [View.ld_unit_zero (S := S256x512) hz, View.ld_unit_zero (S := S256x1024) hz,
    View.ld_unit_zero (S := S512x2048) hz, View.ld_unit_zero (S := S1024x1024) hz]
  unfold k0_pay3
  rw [spike_apply]
  simp only [addf_apply, broadcast_apply]
  rw [inhState_pay, inputDriveHi_apply, rowRepeat_apply]
  unfold k0_pay4 k0_pay5
  rw [shapeCast_self, shapeCast_self, loadSecondHalf_apply, loadSecondHalf_apply]
  rfl

end Cert.KernelIdeal.Block
-- ==== Proof.Blocks.lean ====
/-
  From the blocks to the arrays. The grid has 32 points; point `t` holds batch rows 256 t … 256 t + 255 of x,
  y_exc, s_exc, y_inh, s_inh and of the four outputs, and the whole of the input weights, the coupling, the offset
  row and the leak row (each a 2048-vector of @main laid out as one row of 2048 before the call). So what point `t`
  writes back is block `t` of ONE function of the whole argument arrays — the row function of Spec.lean at batch
  row 256 t + p — and since the 32 blocks tile the 8192 rows, each output array ends holding that function.
-/
import proofs.«169001_j81862076661763_2_alg».proof.Proof.Gen.KernelIdeal.Value
import proofs.«169001_j81862076661763_2_alg».proof.Proof.Payload
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Cell
open Idealize.ShloMosaic.Pipeline (Dat)

variable (m : (ℓ : Loc nD τ sig) → Buf (Elt Ideal) ℓ) (ρ : Dev nD → PrngReg)

/-! ## The index maps, decided over the 32 points

The five batch inputs and the four outputs move one block of rows per point; the weights and the two rows stay. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-- Row `p` of point `t`'s block is batch row 256 t + p. -/
def rowOf (t : Fin cfg0.N) (p : Fin 256) : Fin 8192 :=
  ⟨256 * t.val + p.val, by have h : t.val < 32 := lt_of_lt_of_eq t.isLt N_0; omega⟩

/-! ## Each input block, read off the argument it stages -/

/-- The x block: rows 256 t … of x. -/
theorem xBlock_apply (c : Dev nD) (t : Fin cfg0.N) (p : Fin 256) (k : Fin 512) :
    (iblk m c 0 t : Vec Ideal S256x512 .f32) (ix2 p k) = ((m ((c : Thread nD τ).loc main_arg0)) : S8192x512.Idx → EReal) (ix2 (rowOf t p) k) := by
  obtain ⟨h0, h1⟩ := idx0 t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 256 + 1 * p.val = 256 * t.val + p.val; rw [h0]; omega
  | ⟨1, _⟩ => show win0_0.index t 1 * 512 + 1 * k.val = k.val; rw [h1]; omega

/-- The y_exc block. -/
theorem yExcBlock_apply (c : Dev nD) (t : Fin cfg0.N) (p : Fin 256) (k : Fin 1024) :
    (iblk m c 1 t : Vec Ideal S256x1024 .f32) (ix2 p k) = ((m ((c : Thread nD τ).loc main_arg1)) : S8192x1024.Idx → EReal) (ix2 (rowOf t p) k) := by
  obtain ⟨h0, h1⟩ := idx1 t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 256 + 1 * p.val = 256 * t.val + p.val; rw [h0]; omega
  | ⟨1, _⟩ => show win0_1.index t 1 * 1024 + 1 * k.val = k.val; rw [h1]; omega

/-- The s_exc block. -/
theorem sExcBlock_apply (c : Dev nD) (t : Fin cfg0.N) (p : Fin 256) (k : Fin 1024) :
    (iblk m c 2 t : Vec Ideal S256x1024 .f32) (ix2 p k) = ((m ((c : Thread nD τ).loc main_arg2)) : S8192x1024.Idx → EReal) (ix2 (rowOf t p) k) := by
  obtain ⟨h0, h1⟩ := idx2 t
  unfold iblk
  rw [View.read_apply]
  show V m c main_arg2 _ = _
  rw [V_main_arg2]
  refine congrArg (m ((c : Thread nD τ).loc main_arg2)) ?_
  funext a; apply Fin.ext
  match a with
  | ⟨0, _⟩ => show win0_2.index t 0 * 256 + 1 * p.val = 256 * t.val + p.val; rw [h0]; omega
  | ⟨1, _⟩ => show win0_2.index t 1 * 1024 + 1 * k.val = k.val; rw [h1]; omega

/-- The y_inh block. -/
theorem yInhBlock_apply (c : Dev nD) (t : Fin cfg0.N) (p : Fin 256) (k : Fin 1024) :
    (iblk m c 3 t : Vec Ideal S256x1024 .f32) (ix2 p k) = ((m ((c : Thread nD τ).loc main_arg3)) : S8192x1024.Idx → EReal) (ix2 (rowOf t p) k) := by
  obtain ⟨h0, h1⟩ := idx3 t
  unfold iblk
  rw [View.read_apply]
  show V m c main_arg3 _ = _
  rw [V_main_arg3]
  refine congrArg (m ((c : Thread nD τ).loc main_arg3)) ?_
  funext a; apply Fin.ext
  match a with
  | ⟨0, _⟩ => show win0_3.index t 0 * 256 + 1 * p.val = 256 * t.val + p.val; rw [h0]; omega
  | ⟨1, _⟩ => show win0_3.index t 1 * 1024 + 1 * k.val = k.val; rw [h1]; omega

/-- The s_inh block. -/
theorem sInhBlock_apply (c : Dev nD) (t : Fin cfg0.N) (p : Fin 256) (k : Fin 1024) :
    (iblk m c 4 t : Vec Ideal S256x1024 .f32) (ix2 p k) = ((m ((c : Thread nD τ).loc main_arg4)) : S8192x1024.Idx → EReal) (ix2 (rowOf t p) k) := by
  obtain ⟨h0, h1⟩ := idx4 t
  unfold iblk
  rw [View.read_apply]
  show V m c main_arg4 _ = _
  rw [V_main_arg4]
  refine congrArg (m ((c : Thread nD τ).loc main_arg4)) ?_
  funext a; apply Fin.ext
  match a with
  | ⟨0, _⟩ => show win0_4.index t 0 * 256 + 1 * p.val = 256 * t.val + p.val; rw [h0]; omega
  | ⟨1, _⟩ => show win0_4.index t 1 * 1024 + 1 * k.val = k.val; rw [h1]; omega

/-- Every point sees the whole of the input weights. -/
theorem inputWeights_apply (c : Dev nD) (t : Fin cfg0.N) (a : Fin 512) (b : Fin 2048) :
    (iblk m c 5 t : Vec Ideal S512x2048 .f32) (ix2 a b) = ((m ((c : Thread nD τ).loc main_arg5)) : S512x2048.Idx → EReal) (ix2 a b) := by
  obtain ⟨h0, h1⟩ := idx5 t
  unfold iblk
  rw [View.read_apply]
  show V m c main_arg5 _ = _
  rw [V_main_arg5]
  refine congrArg (m ((c : Thread nD τ).loc main_arg5)) ?_
  funext d; apply Fin.ext
  match d with
  | ⟨0, _⟩ => show win0_5.index t 0 * 512 + 1 * a.val = a.val; rw [h0]; omega
  | ⟨1, _⟩ => show win0_5.index t 1 * 2048 + 1 * b.val = b.val; rw [h1]; omega

/-- Every point sees the whole of the coupling. -/
theorem coupling_apply (c : Dev nD) (t : Fin cfg0.N) (a : Fin 1024) (b : Fin 1024) :
    (iblk m c 6 t : Vec Ideal S1024x1024 .f32) (ix2 a b) = ((m ((c : Thread nD τ).loc main_arg6)) : S1024x1024.Idx → EReal) (ix2 a b) := by
  obtain ⟨h0, h1⟩ := idx6 t
  unfold iblk
  rw [View.read_apply]
  show V m c main_arg6 _ = _
  rw [V_main_arg6]
  refine congrArg (m ((c : Thread nD τ).loc main_arg6)) ?_
  funext d; apply Fin.ext
  match d with
  | ⟨0, _⟩ => show win0_6.index t 0 * 1024 + 1 * a.val = a.val; rw [h0]; omega
  | ⟨1, _⟩ => show win0_6.index t 1 * 1024 + 1 * b.val = b.val; rw [h1]; omega

/-- Every point sees the offset vector, laid out as one row before the call: entry (0, a) of the row is entry a of the vector. -/
theorem offsetRow_apply (c : Dev nD) (t : Fin cfg0.N) (a : Fin 2048) :
    (iblk m c 7 t : Vec Ideal S1x2048 .f32) (ix2 0 a) = ((m ((c : Thread nD τ).loc main_arg7)) : S2048.Idx → EReal) (ix1 a) := by
  obtain ⟨h0, h1⟩ := idx7 t
  have e : (V m c main_v0 : S1x2048.Idx → EReal)
      = shapeCast S1x2048 ((m ((c : Thread nD τ).loc main_arg7)) : S2048.Idx → EReal) shapeCasts_S2048_S1x2048 := by
    dsimp only [V, hostOps0]; after_results; rfl
  unfold iblk
  rw [View.read_apply]
  show V m c main_v0 _ = _
  rw [e]
  refine shapeCast_apply _ _ _ (ix1 a) ?_
  rw [Shape.rowMajor_val_one, Shape.rowMajor_val_two]
  show a.val = (win0_7.index t 0 * 1 + 1 * 0) * 2048 + (win0_7.index t 1 * 2048 + 1 * a.val)
  rw [h0, h1]; omega

/-- Every point sees the leak vector, laid out the same way. -/
theorem leakRow_apply (c : Dev nD) (t : Fin cfg0.N) (a : Fin 2048) :
    (iblk m c 8 t : Vec Ideal S1x2048 .f32) (ix2 0 a) = ((m ((c : Thread nD τ).loc main_arg8)) : S2048.Idx → EReal) (ix1 a) := by
  obtain ⟨h0, h1⟩ := idx8 t
  have e : (V m c main_v1 : S1x2048.Idx → EReal)
      = shapeCast S1x2048 ((m ((c : Thread nD τ).loc main_arg8)) : S2048.Idx → EReal) shapeCasts_S2048_S1x2048 := by
    dsimp only [V, hostOps0]; after_results; rfl
  unfold iblk
  rw [View.read_apply]
  show V m c main_v1 _ = _
  rw [e]
  refine shapeCast_apply _ _ _ (ix1 a) ?_
  rw [Shape.rowMajor_val_one, Shape.rowMajor_val_two]
  show a.val = (win0_8.index t 0 * 1 + 1 * 0) * 2048 + (win0_8.index t 1 * 2048 + 1 * a.val)
  rw [h0, h1]; omega

/-! ## The new excitatory state (output window 10) -/

/-- Entry (p, q) of point `t`'s block sits at batch row 256 t + p, unit q. -/
theorem outEmb10 (t : Fin cfg0.N) (p : Fin 256) (q : Fin 1024) :
    ((cfg0.win 10).blk t).view.emb (ix2 p q) = (ix2 (rowOf t p) q : S8192x1024.Idx) := by
  obtain ⟨h0, h1⟩ := idx10 t
  funext a; apply Fin.ext
  match a with
  | ⟨0, _⟩ => show win0_10.index t 0 * 256 + 1 * p.val = 256 * t.val + p.val; rw [h0]; omega
  | ⟨1, _⟩ => show win0_10.index t 1 * 1024 + 1 * q.val = q.val; rw [h1]; omega

/-- What point `t` writes back is block `t` of the row function over the whole argument arrays. -/
theorem flushed10_eq (c : Dev nD) (t : Fin cfg0.N) :
    (dats m 0 c).flushed 10 t = ((cfg0.win 10).blk t).view.read (Elt Ideal) (excStateArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8))) := by
  rw [Value.flushed10]
  funext y
  obtain ⟨p, q, rfl⟩ : ∃ (p : Fin 256) (q : Fin 1024), y = ix2 p q := ⟨y 0, y 1, eq_ix2 y⟩
  rw [View.read_apply, outEmb10]
  show out0_10 (iblk m c 0 t) (iblk m c 1 t) (iblk m c 2 t) (iblk m c 3 t) (iblk m c 4 t) (iblk m c 5 t) (iblk m c 6 t) (iblk m c 7 t) (iblk m c 8 t) (ix2 p q) = _
  refine (Block.excState_block (iblk m c 0 t) (iblk m c 1 t) (iblk m c 2 t) (iblk m c 3 t) (iblk m c 4 t) (iblk m c 5 t) (iblk m c 6 t) (iblk m c 7 t) (iblk m c 8 t) p q).trans ?_
  simp only [xBlock_apply, yExcBlock_apply, sExcBlock_apply, yInhBlock_apply, sInhBlock_apply, inputWeights_apply,
    coupling_apply, offsetRow_apply, leakRow_apply]
  rfl

/-- An index of the array is in point `t`'s block iff each coordinate is in the block's range on its axis. -/
theorem mem_blk10 (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v2_1).slice (win0_10.rect t)).set ↔ _
  rw [View.set_slice_whole, Rect.mem_set_unit]
  exact Iff.rfl

/-- Batch row r lies in the block of point r / 256: the 32 blocks tile the 8192 rows. -/
theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_10 _, ?_⟩
  obtain ⟨h0, h1⟩ := idx10 ⟨(i 0).val / 256, by rw [hN]; omega⟩
  rw [mem_blk10]
  intro a
  match a with
  | ⟨0, _⟩ =>
    show win0_10.index ⟨(i 0).val / 256, _⟩ 0 * 256 ≤ (i 0).val ∧ (i 0).val < win0_10.index ⟨(i 0).val / 256, _⟩ 0 * 256 + 256
    rw [h0]; show (i 0).val / 256 * 256 ≤ (i 0).val ∧ (i 0).val < (i 0).val / 256 * 256 + 256; omega
  | ⟨1, _⟩ =>
    show win0_10.index ⟨(i 0).val / 256, _⟩ 1 * 1024 ≤ (i 1).val ∧ (i 1).val < win0_10.index ⟨(i 0).val / 256, _⟩ 1 * 1024 + 1024
    rw [h1]; omega

/-- So the array ends holding the row function of the argument arrays, entry by entry. -/
theorem final10 (c : Dev nD) : (dats m 0 c).arrAt 10 cfg0.N = excStateArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) :=
  (dats m 0 c).arrAt_eq_of_cover 10 _ (fun t _ => flushed10_eq m c t) (cover10)

/-! ## The new excitatory output (output window 9) -/

/-- Entry (p, q) of point `t`'s block sits at batch row 256 t + p, unit q. -/
theorem outEmb9 (t : Fin cfg0.N) (p : Fin 256) (q : Fin 1024) :
    ((cfg0.win 9).blk t).view.emb (ix2 p q) = (ix2 (rowOf t p) q : S8192x1024.Idx) := by
  obtain ⟨h0, h1⟩ := idx9 t
  funext a; apply Fin.ext
  match a with
  | ⟨0, _⟩ => show win0_9.index t 0 * 256 + 1 * p.val = 256 * t.val + p.val; rw [h0]; omega
  | ⟨1, _⟩ => show win0_9.index t 1 * 1024 + 1 * q.val = q.val; rw [h1]; omega

/-- What point `t` writes back is block `t` of the row function over the whole argument arrays. -/
theorem flushed9_eq (c : Dev nD) (t : Fin cfg0.N) :
    (dats m 0 c).flushed 9 t = ((cfg0.win 9).blk t).view.read (Elt Ideal) (excSpikeArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) := by
  rw [Value.flushed9]
  funext y
  obtain ⟨p, q, rfl⟩ : ∃ (p : Fin 256) (q : Fin 1024), y = ix2 p q := ⟨y 0, y 1, eq_ix2 y⟩
  rw [View.read_apply, outEmb9]
  show out0_9 (iblk m c 0 t) (iblk m c 1 t) (iblk m c 2 t) (iblk m c 3 t) (iblk m c 4 t) (iblk m c 5 t) (iblk m c 6 t) (iblk m c 7 t) (iblk m c 8 t) (ix2 p q) = _
  refine (Block.excSpike_block (iblk m c 0 t) (iblk m c 1 t) (iblk m c 2 t) (iblk m c 3 t) (iblk m c 4 t) (iblk m c 5 t) (iblk m c 6 t) (iblk m c 7 t) (iblk m c 8 t) p q).trans ?_
  simp only [xBlock_apply, yExcBlock_apply, sExcBlock_apply, yInhBlock_apply, sInhBlock_apply, inputWeights_apply,
    coupling_apply, offsetRow_apply, leakRow_apply]
  rfl

/-- An index of the array is in point `t`'s block iff each coordinate is in the block's range on its axis. -/
theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v2_0).slice (win0_9.rect t)).set ↔ _
  rw [View.set_slice_whole, Rect.mem_set_unit]
  exact Iff.rfl

/-- Batch row r lies in the block of point r / 256: the 32 blocks tile the 8192 rows. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_9 _, ?_⟩
  obtain ⟨h0, h1⟩ := idx9 ⟨(i 0).val / 256, by rw [hN]; omega⟩
  rw [mem_blk9]
  intro a
  match a with
  | ⟨0, _⟩ =>
    show win0_9.index ⟨(i 0).val / 256, _⟩ 0 * 256 ≤ (i 0).val ∧ (i 0).val < win0_9.index ⟨(i 0).val / 256, _⟩ 0 * 256 + 256
    rw [h0]; show (i 0).val / 256 * 256 ≤ (i 0).val ∧ (i 0).val < (i 0).val / 256 * 256 + 256; omega
  | ⟨1, _⟩ =>
    show win0_9.index ⟨(i 0).val / 256, _⟩ 1 * 1024 ≤ (i 1).val ∧ (i 1).val < win0_9.index ⟨(i 0).val / 256, _⟩ 1 * 1024 + 1024
    rw [h1]; omega

/-- So the array ends holding the row function of the argument arrays, entry by entry. -/
theorem final9 (c : Dev nD) : (dats m 0 c).arrAt 9 cfg0.N = excSpikeArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed9_eq m c t) (cover9)

/-! ## The new inhibitory state (output window 12) -/

/-- Entry (p, q) of point `t`'s block sits at batch row 256 t + p, unit q. -/
theorem outEmb12 (t : Fin cfg0.N) (p : Fin 256) (q : Fin 1024) :
    ((cfg0.win 12).blk t).view.emb (ix2 p q) = (ix2 (rowOf t p) q : S8192x1024.Idx) := by
  obtain ⟨h0, h1⟩ := idx12 t
  funext a; apply Fin.ext
  match a with
  | ⟨0, _⟩ => show win0_12.index t 0 * 256 + 1 * p.val = 256 * t.val + p.val; rw [h0]; omega
  | ⟨1, _⟩ => show win0_12.index t 1 * 1024 + 1 * q.val = q.val; rw [h1]; omega

/-- What point `t` writes back is block `t` of the row function over the whole argument arrays. -/
theorem flushed12_eq (c : Dev nD) (t : Fin cfg0.N) :
    (dats m 0 c).flushed 12 t = ((cfg0.win 12).blk t).view.read (Elt Ideal) (inhStateArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8))) := by
  rw [Value.flushed12]
  funext y
  obtain ⟨p, q, rfl⟩ : ∃ (p : Fin 256) (q : Fin 1024), y = ix2 p q := ⟨y 0, y 1, eq_ix2 y⟩
  rw [View.read_apply, outEmb12]
  show out0_12 (iblk m c 0 t) (iblk m c 1 t) (iblk m c 2 t) (iblk m c 3 t) (iblk m c 4 t) (iblk m c 5 t) (iblk m c 6 t) (iblk m c 7 t) (iblk m c 8 t) (ix2 p q) = _
  refine (Block.inhState_block (iblk m c 0 t) (iblk m c 1 t) (iblk m c 2 t) (iblk m c 3 t) (iblk m c 4 t) (iblk m c 5 t) (iblk m c 6 t) (iblk m c 7 t) (iblk m c 8 t) p q).trans ?_
  simp only [xBlock_apply, yExcBlock_apply, sExcBlock_apply, yInhBlock_apply, sInhBlock_apply, inputWeights_apply,
    coupling_apply, offsetRow_apply, leakRow_apply]
  rfl

/-- An index of the array is in point `t`'s block iff each coordinate is in the block's range on its axis. -/
theorem mem_blk12 (t : Fin cfg0.N) (i : S8192x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v2_3).slice (win0_12.rect t)).set ↔ _
  rw [View.set_slice_whole, Rect.mem_set_unit]
  exact Iff.rfl

/-- Batch row r lies in the block of point r / 256: the 32 blocks tile the 8192 rows. -/
theorem cover12 (i : S8192x1024.Idx) : ∃ t : Fin cfg0.N, (cfg0.win 12).flush t = true ∧ i ∈ ((cfg0.win 12).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_12 _, ?_⟩
  obtain ⟨h0, h1⟩ := idx12 ⟨(i 0).val / 256, by rw [hN]; omega⟩
  rw [mem_blk12]
  intro a
  match a with
  | ⟨0, _⟩ =>
    show win0_12.index ⟨(i 0).val / 256, _⟩ 0 * 256 ≤ (i 0).val ∧ (i 0).val < win0_12.index ⟨(i 0).val / 256, _⟩ 0 * 256 + 256
    rw [h0]; show (i 0).val / 256 * 256 ≤ (i 0).val ∧ (i 0).val < (i 0).val / 256 * 256 + 256; omega
  | ⟨1, _⟩ =>
    show win0_12.index ⟨(i 0).val / 256, _⟩ 1 * 1024 ≤ (i 1).val ∧ (i 1).val < win0_12.index ⟨(i 0).val / 256, _⟩ 1 * 1024 + 1024
    rw [h1]; omega

/-- So the array ends holding the row function of the argument arrays, entry by entry. -/
theorem final12 (c : Dev nD) : (dats m 0 c).arrAt 12 cfg0.N = inhStateArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) :=
  (dats m 0 c).arrAt_eq_of_cover 12 _ (fun t _ => flushed12_eq m c t) (cover12)

/-! ## The new inhibitory output (output window 11) -/

/-- Entry (p, q) of point `t`'s block sits at batch row 256 t + p, unit q. -/
theorem outEmb11 (t : Fin cfg0.N) (p : Fin 256) (q : Fin 1024) :
    ((cfg0.win 11).blk t).view.emb (ix2 p q) = (ix2 (rowOf t p) q : S8192x1024.Idx) := by
  obtain ⟨h0, h1⟩ := idx11 t
  funext a; apply Fin.ext
  match a with
  | ⟨0, _⟩ => show win0_11.index t 0 * 256 + 1 * p.val = 256 * t.val + p.val; rw [h0]; omega
  | ⟨1, _⟩ => show win0_11.index t 1 * 1024 + 1 * q.val = q.val; rw [h1]; omega

/-- What point `t` writes back is block `t` of the row function over the whole argument arrays. -/
theorem flushed11_eq (c : Dev nD) (t : Fin cfg0.N) :
    (dats m 0 c).flushed 11 t = ((cfg0.win 11).blk t).view.read (Elt Ideal) (inhSpikeArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed11]
  funext y
  obtain ⟨p, q, rfl⟩ : ∃ (p : Fin 256) (q : Fin 1024), y = ix2 p q := ⟨y 0, y 1, eq_ix2 y⟩
  rw [View.read_apply, outEmb11]
  show out0_11 (iblk m c 0 t) (iblk m c 1 t) (iblk m c 2 t) (iblk m c 3 t) (iblk m c 4 t) (iblk m c 5 t) (iblk m c 6 t) (iblk m c 7 t) (iblk m c 8 t) (ix2 p q) = _
  refine (Block.inhSpike_block (iblk m c 0 t) (iblk m c 1 t) (iblk m c 2 t) (iblk m c 3 t) (iblk m c 4 t) (iblk m c 5 t) (iblk m c 6 t) (iblk m c 7 t) (iblk m c 8 t) p q).trans ?_
  simp only [xBlock_apply, yExcBlock_apply, sExcBlock_apply, yInhBlock_apply, sInhBlock_apply, inputWeights_apply,
    coupling_apply, offsetRow_apply, leakRow_apply]
  rfl

/-- An index of the array is in point `t`'s block iff each coordinate is in the block's range on its axis. -/
theorem mem_blk11 (t : Fin cfg0.N) (i : S8192x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v2_2).slice (win0_11.rect t)).set ↔ _
  rw [View.set_slice_whole, Rect.mem_set_unit]
  exact Iff.rfl

/-- Batch row r lies in the block of point r / 256: the 32 blocks tile the 8192 rows. -/
theorem cover11 (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_11 _, ?_⟩
  obtain ⟨h0, h1⟩ := idx11 ⟨(i 0).val / 256, by rw [hN]; omega⟩
  rw [mem_blk11]
  intro a
  match a with
  | ⟨0, _⟩ =>
    show win0_11.index ⟨(i 0).val / 256, _⟩ 0 * 256 ≤ (i 0).val ∧ (i 0).val < win0_11.index ⟨(i 0).val / 256, _⟩ 0 * 256 + 256
    rw [h0]; show (i 0).val / 256 * 256 ≤ (i 0).val ∧ (i 0).val < (i 0).val / 256 * 256 + 256; omega
  | ⟨1, _⟩ =>
    show win0_11.index ⟨(i 0).val / 256, _⟩ 1 * 1024 ≤ (i 1).val ∧ (i 1).val < win0_11.index ⟨(i 0).val / 256, _⟩ 1 * 1024 + 1024
    rw [h1]; omega

/-- So the array ends holding the row function of the argument arrays, entry by entry. -/
theorem final11 (c : Dev nD) : (dats m 0 c).arrAt 11 cfg0.N = inhSpikeArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 11 _ (fun t _ => flushed11_eq m c t) (cover11)

/-! ## The run -/

/-- Every weakly fair execution of the kernel's @main terminates with the four results at the cell step of the
    argument arrays, the arguments unchanged. -/
theorem run : θ_run defs (onTc (τ := τ) (main (F := Ideal))) ⟨m, fun _ => 0, ρ⟩ fun r => ∀ c : Dev nD,
      r.2.mem ((c : Thread nD τ).loc main_v2_0) = excSpikeArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))
      ∧ r.2.mem ((c : Thread nD τ).loc main_v2_1) = excStateArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8))
      ∧ r.2.mem ((c : Thread nD τ).loc main_v2_2) = inhSpikeArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v2_3) = inhStateArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c),
      (h c).2.2.1.trans (final11 m c), (h c).2.2.2.1.trans (final12 m c), (h c).2.2.2.2⟩)
    (Value.run_blocks m ρ)

end Cert.KernelIdeal.Whole
-- ==== Proof.LibNegDot.lean ====
/-
  A product with a NEGATED matrix, subtracted, against the product added — x − y · (−E) against x + y · E — entry
  by entry on the extended reals. The two agree when the row's and the column's entries are real numbers; with
  infinite entries a sum can hold both infinities, and negation does not pass through such a sum.
-/
import Idealize.ShloMosaic.PureOps.Ideal

noncomputable section

namespace Cert.LibNegDot

open scoped BigOperators

/-- A finite sum of reals, read in the extended reals, is the sum of the terms read there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Subtracting the product of a row with the NEGATED column is adding the product with the column, when the
    row's and the column's entries are real: the terms are then real, and negation passes through a real sum. -/
theorem sub_dot_neg {ι : Type} [Fintype ι] (a : EReal) (y e : ι → EReal) (hy : ∀ k, ∃ r : ℝ, y k = r)
    (he : ∀ k, ∃ r : ℝ, e k = r) : a - ∑ k, y k * -(e k) = a + ∑ k, y k * e k := by
  choose yr hyr using hy
  choose er her using he
  have h1 : ∑ k, y k * -(e k) = ((-(∑ k, yr k * er k) : ℝ) : EReal) := by
    rw [← Finset.sum_neg_distrib, coe_sum]
    refine Finset.sum_congr rfl fun k _ => ?_
    rw [hyr k, her k, ← EReal.coe_neg, ← EReal.coe_mul, mul_neg]
  have h2 : ∑ k, y k * e k = ((∑ k, yr k * er k : ℝ) : EReal) := by
    rw [coe_sum]
    refine Finset.sum_congr rfl fun k _ => ?_
    rw [hyr k, her k, EReal.coe_mul]
  rw [h1, h2, sub_eq_add_neg, ← EReal.coe_neg, neg_neg]

end Cert.LibNegDot
-- ==== Proof.RefSide.lean ====
/-
  The reference computes the cell step: each of its four results, read at an index (p, q) through its operations,
  is the row function of Spec.lean at row `p` and unit `q`. The reference slices the input weights, the leak and the
  offset into halves before it uses them, transposes the coupling for the inhibitory half, and spells the
  excitatory coupling as a subtraction of the product with the negated matrix; the last is where the entries of
  `y_inh` and of the coupling have to be real.
-/
import proofs.«169001_j81862076661763_2_alg».proof.Proof.Gen.ReferenceIdeal.Read
import proofs.«169001_j81862076661763_2_alg».proof.Proof.Spec
import proofs.«169001_j81862076661763_2_alg».proof.Proof.LibNegDot

noncomputable section

namespace Cert.ReferenceIdeal.RefValue

open Cert.ReferenceIdeal Cert.ReferenceIdeal.Read Idealize.ShloMosaic Idealize.ShloMosaic.ValueIdx Cert.Cell
open scoped BigOperators

/-- The new excitatory state. -/
theorem excState_eq (x0 : ShX.Idx → EReal) (x1 x2 x3 : ShH.Idx → EReal) (x5 : ShW.Idx → EReal) (x6 : ShE.Idx → EReal)
    (x8 : ShV.Idx → EReal) (h3 : ∀ j, ∃ r : ℝ, x3 j = r) (h6 : ∀ j, ∃ r : ℝ, x6 j = r) :
    val_main_v18 (F := Ideal) x0 x1 x2 x3 x5 x6 x8 = excStateArr x0 x1 x2 x3 x5 x6 x8 := by
  funext i
  obtain ⟨p, q, rfl⟩ : ∃ (p : Fin 8192) (q : Fin 1024), i = ix2 p q := ⟨i 0, i 1, eq_ix2 i⟩
  -- row p of x against column q of the first half of the input weights
  have e1 : ∀ k : Fin 512, lidx_main_v6 (ix2 p q) k = ix2 p k := fun k =>
    funext fun a => Fin.ext (by match a with | ⟨0, _⟩ => rfl | ⟨1, _⟩ => rfl)
  have e2 : ∀ k : Fin 512, idx_main_v0 (ridx_main_v6 (ix2 p q) k) = ix2 k (lo q) := fun k =>
    funext fun a => Fin.ext (by match a with | ⟨0, _⟩ => rfl | ⟨1, _⟩ => rfl)
  -- row p of y_inh against column q of the coupling
  have e3 : ∀ k : Fin 1024, lidx_main_v9 (ix2 p q) k = ix2 p k := fun k =>
    funext fun a => Fin.ext (by match a with | ⟨0, _⟩ => rfl | ⟨1, _⟩ => rfl)
  have e4 : ∀ k : Fin 1024, ridx_main_v9 (ix2 p q) k = ix2 k q := fun k =>
    funext fun a => Fin.ext (by match a with | ⟨0, _⟩ => rfl | ⟨1, _⟩ => rfl)
  -- entry q of the first half of the leak
  have e5 : idx_main_v4 (idx_main_v11 (idx_main_v12 (ix2 p q))) = ix1 (lo q) :=
    funext fun a => Fin.ext (by match a with | ⟨0, _⟩ => rfl)
  rw [val_main_v18_apply, val_main_v17_apply, val_main_v10_apply, val_main_v7_apply, val_main_v6_apply, val_main_v9_apply,
    val_main_v16_apply, val_main_v13_apply, val_main_v12_apply, val_main_v11_apply, val_main_v4_apply, val_main_v15_apply,
    val_main_v14_apply, val_main_cst_apply, val_main_call0_v0_apply, val_main_call0_cst_apply]
  simp only [val_main_v0_apply, val_main_v8_apply, Ideal.addf_def, Ideal.subf_def, Ideal.mulf_def, Ideal.maximumf_def,
    Ideal.hostNegf_def, Ideal.negf_def, Ideal.ofBits_def, e1, e2, e3, e4, e5]
  rw [Cert.LibNegDot.sub_dot_neg _ (fun k : Fin 1024 => x3 (ix2 p k)) (fun k : Fin 1024 => x6 (ix2 k q)) (fun k => h3 _) (fun k => h6 _)]
  rfl

/-- The new excitatory output. -/
theorem excSpike_eq (x0 : ShX.Idx → EReal) (x1 x2 x3 : ShH.Idx → EReal) (x5 : ShW.Idx → EReal) (x6 : ShE.Idx → EReal)
    (x7 x8 : ShV.Idx → EReal) (h3 : ∀ j, ∃ r : ℝ, x3 j = r) (h6 : ∀ j, ∃ r : ℝ, x6 j = r) :
    val_main_v24 (F := Ideal) x0 x1 x2 x3 x5 x6 x7 x8 = excSpikeArr x0 x1 x2 x3 x5 x6 x7 x8 := by
  funext i
  obtain ⟨p, q, rfl⟩ : ∃ (p : Fin 8192) (q : Fin 1024), i = ix2 p q := ⟨i 0, i 1, eq_ix2 i⟩
  -- entry q of the first half of the offset
  have e : idx_main_v2 (idx_main_v19 (idx_main_v20 (ix2 p q))) = ix1 (lo q) :=
    funext fun a => Fin.ext (by match a with | ⟨0, _⟩ => rfl)
  rw [val_main_v24_apply, val_main_v23_apply, val_main_v21_apply, val_main_v20_apply, val_main_v19_apply, val_main_v2_apply,
    val_main_v22_apply, val_main_cst_0_apply, excState_eq x0 x1 x2 x3 x5 x6 x8 h3 h6, e]
  rfl

/-- The new inhibitory state. -/
theorem inhState_eq (x0 : ShX.Idx → EReal) (x1 x3 x4 : ShH.Idx → EReal) (x5 : ShW.Idx → EReal) (x6 : ShE.Idx → EReal)
    (x8 : ShV.Idx → EReal) :
    val_main_v37 (F := Ideal) x0 x1 x3 x4 x5 x6 x8 = inhStateArr x0 x1 x3 x4 x5 x6 x8 := by
  funext i
  obtain ⟨p, q, rfl⟩ : ∃ (p : Fin 8192) (q : Fin 1024), i = ix2 p q := ⟨i 0, i 1, eq_ix2 i⟩
  -- row p of x against column 1024 + q of the input weights
  have e1 : ∀ k : Fin 512, lidx_main_v25 (ix2 p q) k = ix2 p k := fun k =>
    funext fun a => Fin.ext (by match a with | ⟨0, _⟩ => rfl | ⟨1, _⟩ => rfl)
  have e2 : ∀ k : Fin 512, idx_main_v1 (ridx_main_v25 (ix2 p q) k) = ix2 k (hi q) := fun k =>
    funext fun a => Fin.ext (by match a with | ⟨0, _⟩ => rfl | ⟨1, _⟩ => rfl)
  -- row p of y_exc against ROW q of the coupling: column q of its transpose
  have e3 : ∀ k : Fin 1024, lidx_main_v28 (ix2 p q) k = ix2 p k := fun k =>
    funext fun a => Fin.ext (by match a with | ⟨0, _⟩ => rfl | ⟨1, _⟩ => rfl)
  have e4 : ∀ k : Fin 1024, idx_main_v27 (ridx_main_v28 (ix2 p q) k) = ix2 q k := fun k =>
    funext fun a => Fin.ext (by match a with | ⟨0, _⟩ => rfl | ⟨1, _⟩ => rfl)
  -- entry q of the second half of the leak
  have e5 : idx_main_v5 (idx_main_v30 (idx_main_v31 (ix2 p q))) = ix1 (hi q) :=
    funext fun a => Fin.ext (by match a with | ⟨0, _⟩ => rfl)
  rw [val_main_v37_apply, val_main_v36_apply, val_main_v29_apply, val_main_v26_apply, val_main_v25_apply, val_main_v28_apply,
    val_main_v35_apply, val_main_v32_apply, val_main_v31_apply, val_main_v30_apply, val_main_v5_apply, val_main_v34_apply,
    val_main_v33_apply, val_main_cst_1_apply, val_main_call1_v0_apply, val_main_call1_cst_apply]
  simp only [val_main_v1_apply, val_main_v27_apply, Ideal.addf_def, Ideal.subf_def, Ideal.mulf_def, Ideal.maximumf_def,
    Ideal.ofBits_def, e1, e2, e3, e4, e5]
  rfl

/-- The new inhibitory output. -/
theorem inhSpike_eq (x0 : ShX.Idx → EReal) (x1 x3 x4 : ShH.Idx → EReal) (x5 : ShW.Idx → EReal) (x6 : ShE.Idx → EReal)
    (x7 x8 : ShV.Idx → EReal) :
    val_main_v43 (F := Ideal) x0 x1 x3 x4 x5 x6 x7 x8 = inhSpikeArr x0 x1 x3 x4 x5 x6 x7 x8 := by
  funext i
  obtain ⟨p, q, rfl⟩ : ∃ (p : Fin 8192) (q : Fin 1024), i = ix2 p q := ⟨i 0, i 1, eq_ix2 i⟩
  -- entry q of the second half of the offset
  have e : idx_main_v3 (idx_main_v38 (idx_main_v39 (ix2 p q))) = ix1 (hi q) :=
    funext fun a => Fin.ext (by match a with | ⟨0, _⟩ => rfl)
  rw [val_main_v43_apply, val_main_v42_apply, val_main_v40_apply, val_main_v39_apply, val_main_v38_apply, val_main_v3_apply,
    val_main_v41_apply, val_main_cst_2_apply, inhState_eq x0 x1 x3 x4 x5 x6 x8, e]
  rfl

end Cert.ReferenceIdeal.RefValue
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
/-
  What the precondition gives. It is the conjunction, over the nine arguments, of "every entry's absolute value is
  below +infinity"; on the extended reals an entry with that property is a real number. The cell step needs this of
  two arguments only, y_inh and the coupling: the entries whose products the reference negates inside a sum.
-/
import proofs.«169001_j81862076661763_2_alg».proof.Pre_finite_inputs
import proofs.«169001_j81862076661763_2_alg».proof.Proof.Gen.Pre_finite_inputs
import proofs.«169001_j81862076661763_2_alg».proof.Proof.LibRealEntry
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic

instance : Subsingleton S_.Idx := ⟨fun a b => funext fun d => d.elim0⟩

/-- Under the precondition every entry of y_inh and every entry of the coupling is a real number. -/
theorem real_entries (a0 : FVec Ideal S8192x512 .f32) (a1 a2 a3 a4 : FVec Ideal S8192x1024 .f32)
    (a5 : FVec Ideal S512x2048 .f32) (a6 : FVec Ideal S1024x1024 .f32) (a7 a8 : FVec Ideal S2048 .f32)
    (h : fn (F := Ideal) a0 a1 a2 a3 a4 a5 a6 a7 a8 = fun _ => 1#1) :
    (∀ j, ∃ r : ℝ, a3 j = r) ∧ (∀ j, ∃ r : ℝ, a6 j = r) := by
  have h0 := congrFun h ValueIdx.ix0
  dsimp only [fn, fn_part1, fn_part2] at h0
  -- a conjunction of one-bit words is 1 only if both are
  have split : ∀ (x y : IVec S_ 1), andi x y ValueIdx.ix0 = 1#1 → x ValueIdx.ix0 = 1#1 ∧ y ValueIdx.ix0 = 1#1 :=
    fun x y e => IntOp.andi_eq_one.1 e
  -- the nine conjuncts come in the arguments' order, the last outermost: peel l, b, then keep the coupling's,
  -- peel iw's and s_inh's, then keep y_inh's
  obtain ⟨h7, -⟩ := split _ _ h0
  obtain ⟨h6, -⟩ := split _ _ h7
  obtain ⟨h5, hE⟩ := split _ _ h6
  obtain ⟨h4, -⟩ := split _ _ h5
  obtain ⟨h3, -⟩ := split _ _ h4
  obtain ⟨-, hY⟩ := split _ _ h3
  exact ⟨fun j => Cert.LibRealEntry.real_of_abs_lt_inf (a3 j) (Host.reduce_andi_all _ _ _ _ _ hY j),
    fun j => Cert.LibRealEntry.real_of_abs_lt_inf (a6 j) (Host.reduce_andi_all _ _ _ _ _ hE j)⟩

end Cert.Pre_finite_inputs.Decode
-- ==== Proof.lean ====
/-
  One step of a recurrent cell with an excitatory and an inhibitory population (1024 units each, 512 inputs, a batch
  of 8192 rows): the kernel and the plain jnp reference compute the same four arrays on the extended reals.

  Row by row (Proof/Spec.lean), with x the input row, ye / yi the populations' previous outputs, se / si their
  previous states, iw the input weights (the first 1024 columns feed the excitatory units, the last 1024 the
  inhibitory ones), eiw the coupling, l the leak and b the offset:

    new excitatory state = max (x · iw[:, q] + ye q + yi · eiw[:, q] + l q · se q · (1 − ye q)) 0
    new inhibitory state = max (x · iw[:, 1024 + q] + yi q − ye · eiw[q, :] + l (1024 + q) · si q · (1 − yi q)) 0
    new output           = 1 where the new state plus the offset is positive, else 0.

  The kernel walks the batch in 32 blocks of 256 rows. For each block it takes ONE product of the x block with all
  2048 weight columns and reads the two halves of it, multiplies the y_inh block with the coupling and the y_exc
  block with the coupling's rows, and writes the four output blocks (Proof/Payload.lean: each block entry is the
  row function; Proof/Blocks.lean: the 32 blocks tile the arrays, so each array ends holding the row function of
  the whole arguments). The reference slices the weights first, transposes the coupling for the inhibitory half,
  and spells the excitatory coupling as MINUS the product of y_inh with the NEGATED coupling (Proof/RefSide.lean).
  Sums, products and the order of a contraction are the same on both sides as they stand; the one law that joins
  them is that a − Σ y·(−e) = a + Σ y·e, which on the extended reals needs the terms to be real — negation does not
  pass through a sum that holds both infinities. That is where the precondition (every input finite) is used, and
  only for y_inh and the coupling (Proof/Finite.lean).

  The kernel's idealization rewrote nothing, so that it is the kernel's sanctioned idealization holds trivially;
  the three programs' frames are the generated ones (the reference's is its generated run with the results dropped).
-/
import proofs.«169001_j81862076661763_2_alg».proof.Defs
import proofs.«169001_j81862076661763_2_alg».proof.Proof.Gen.Kernel
import proofs.«169001_j81862076661763_2_alg».proof.Proof.Gen.Kernel.Skeleton
import proofs.«169001_j81862076661763_2_alg».proof.Proof.Gen.Kernel.Launch
import proofs.«169001_j81862076661763_2_alg».proof.Proof.Gen.Kernel.Points
import proofs.«169001_j81862076661763_2_alg».proof.Proof.Gen.Kernel.Frame
import proofs.«169001_j81862076661763_2_alg».proof.Proof.Gen.KernelIdeal
import proofs.«169001_j81862076661763_2_alg».proof.Proof.Gen.KernelIdeal.Skeleton
import proofs.«169001_j81862076661763_2_alg».proof.Proof.Gen.KernelIdeal.Launch
import proofs.«169001_j81862076661763_2_alg».proof.Proof.Gen.KernelIdeal.Points
import proofs.«169001_j81862076661763_2_alg».proof.Proof.Gen.KernelIdeal.Frame
import proofs.«169001_j81862076661763_2_alg».proof.Proof.Gen.ReferenceIdeal
import proofs.«169001_j81862076661763_2_alg».proof.Proof.Gen.KernelIdeal.Value
import proofs.«169001_j81862076661763_2_alg».proof.Proof.Gen.ReferenceIdeal.Run
import proofs.«169001_j81862076661763_2_alg».proof.Proof.Gen.ReferenceIdeal.Read
import proofs.«169001_j81862076661763_2_alg».proof.Proof.Gen.Pre_finite_inputs
import proofs.«169001_j81862076661763_2_alg».proof.Proof.Blocks
import proofs.«169001_j81862076661763_2_alg».proof.Proof.RefSide
import proofs.«169001_j81862076661763_2_alg».proof.Proof.Finite
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its arguments unchanged: its generated run with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From memories that agree on the nine arguments both programs end with the four results at the cell step of
    the arguments: the kernel block by block, the reference operation by operation, the latter using that the entries
    of y_inh and of the coupling are real. -/
theorem algebraic : Cert.algebraic_KernelIdeal_ReferenceIdeal := by
  intro m ρ m' ρ' hpre hagree
  refine ⟨_, _, _, _, Cert.KernelIdeal.Whole.run m ρ, ?_⟩
  refine (θ_run Cert.ReferenceIdeal.defs _ _).mono (fun _ h c => ?_) (Cert.ReferenceIdeal.Value.run (F := Ideal) m' ρ')
  obtain ⟨hY, hE⟩ := Cert.Pre_finite_inputs.Decode.real_entries _ _ _ _ _ _ _ _ _ (hpre c)
  obtain ⟨a0, a1, a2, a3, a4, a5, a6, a7, a8⟩ := hagree c
  obtain ⟨r0, r1, r2, r3, rest⟩ := h c
  refine ⟨r0.trans ?_, r1.trans ?_, r2.trans ?_, r3.trans ?_, rest⟩
  · rw [a0, a1, a2, a3, a5, a6, a7, a8]
    exact (Cert.ReferenceIdeal.Read.val_main_v24_eq _ _ _ _ _ _ _ _).trans
      (Cert.ReferenceIdeal.RefValue.excSpike_eq _ _ _ _ _ _ _ _ hY hE)
  · rw [a0, a1, a2, a3, a5, a6, a8]
    exact (Cert.ReferenceIdeal.Read.val_main_v18_eq _ _ _ _ _ _ _).trans
      (Cert.ReferenceIdeal.RefValue.excState_eq _ _ _ _ _ _ _ hY hE)
  · rw [a0, a1, a3, a4, a5, a6, a7, a8]
    exact (Cert.ReferenceIdeal.Read.val_main_v43_eq _ _ _ _ _ _ _ _).trans
      (Cert.ReferenceIdeal.RefValue.inhSpike_eq _ _ _ _ _ _ _ _)
  · rw [a0, a1, a3, a4, a5, a6, a8]
    exact (Cert.ReferenceIdeal.Read.val_main_v37_eq _ _ _ _ _ _ _).trans
      (Cert.ReferenceIdeal.RefValue.inhState_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
